-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : FVec F S64x1024x64 .f32) (main_arg3 : IVec S64x1024x1024 1) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  main_v13
-- ==== Kernel.lean ====
abbrev S64x1024x64 : Shape := ⟨3, ![64, 1024, 64]⟩
abbrev S64x1024x1024 : Shape := ⟨3, ![64, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .i32⟩
  | .hbm, ⟨5, _⟩ => ⟨S64x1024x64, .f32⟩
  | .hbm, ⟨6, _⟩ => ⟨S64x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x1024, .f32⟩
  | .local _ .vmem, ⟨11, _⟩ => ⟨S1x1024x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  shapeCasts_S1024x64_S1x1024x64 : S1024x64.ShapeCasts S1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .i32 = 32 ∨ (Rect.block (s := S64x1024x1024) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x1024x64.size a
  hwx0_4 : ∀ i : grid0.Coords, EltTy.bits .f32 = 32 ∨ (Rect.block (s := S64x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .i1⟩
  | .hbm, ⟨4, _⟩ => ⟨S64x1024x1024, .f32⟩
  | .hbm, ⟨5, _⟩ => ⟨S_, .f32⟩
  | .hbm, ⟨6, _⟩ => ⟨S64x1024x1024, .f32⟩
  | .hbm, ⟨7, _⟩ => ⟨S64x1024x1024, .f32⟩
  | .hbm, ⟨8, _⟩ => ⟨S_, .f32⟩
  | .hbm, ⟨9, _⟩ => ⟨S_, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S64x1024x1, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S_, .f32⟩
  | .hbm, ⟨22, _⟩ => ⟨S64x1024, .f32⟩
  | .hbm, ⟨23, _⟩ => ⟨S64x1024x1, .f32⟩
  | .hbm, ⟨24, _⟩ => ⟨S64x1024x1024, .f32⟩
  | .hbm, ⟨25, _⟩ => ⟨S64x1024x1024, .f32⟩
  | .hbm, ⟨26, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Softmax.lean ====
/-
  Masked scaled dot-product attention over one batch entry, as functions of coordinates on the extended reals.

  For query rows `q i`, key rows `k j`, value rows `v j` (each of 64 entries) and a mask bit per pair `(i, j)`:
  the score of the pair is `-∞` where the bit is set and `(∑ d, q i d * k j d) * (1/8)` elsewhere; a row of scores is
  turned into weights by subtracting the row's maximum, exponentiating and dividing by the row's sum of exponentials;
  the output row `i` is the weighted sum `∑ j, weight i j * v j`.  The constants are kept as the binary words both
  programs spell; only their values that the comparison of the two programs needs are computed here: the word of
  `-∞` is the bottom of the order (so taking the maximum with it changes nothing), the zero word is `0`, and
  dividing by the word of `8` is multiplying by the word of `1/8` at every extended real.
-/
import Idealize.ShloMosaic.PureOps.Ideal
import Idealize.ShloMosaic.Lib.ValueIdx

noncomputable section

namespace Cert.Attention

open Idealize.ShloMosaic Idealize.ShloMosaic.ValueIdx

/-- The word of `-∞` denotes the least extended real. -/
theorem negInf_eq : Ideal.ofBits .f32 0xFF800000#32 = ⊥ := by
  simp [Ideal.ofBits, Ideal.ieee]

/-- The zero word denotes `0`. -/
theorem zero_eq : Ideal.ofBits .f32 0x00000000#32 = 0 := by
  simp [Ideal.ofBits, Ideal.ieee]

/-- The word of `0.125` denotes the real `1/8`. -/
theorem eighth_eq : Ideal.ofBits .f32 0x3E000000#32 = ((1 / 8 : ℝ) : EReal) := by
  simp [Ideal.ofBits, Ideal.ieee, -EReal.coe_mul]; norm_num

/-- The word of `8.0` denotes the real `8`. -/
theorem eight_eq : Ideal.ofBits .f32 0x41000000#32 = ((8 : ℝ) : EReal) := by
  simp [Ideal.ofBits, Ideal.ieee, -EReal.coe_mul]; norm_num

/-- Dividing by `8` is multiplying by `1/8`, at the infinities too. -/
theorem div_eight (x : EReal) :
    Ideal.div x (Ideal.ofBits .f32 0x41000000#32) = x * Ideal.ofBits .f32 0x3E000000#32 := by
  rw [eight_eq, eighth_eq, Ideal.div_coe (by norm_num)]

/-- The maximum with the word of `-∞` is the other operand. -/
theorem max_negInf (x : EReal) : max (Ideal.ofBits .f32 0xFF800000#32) x = x := by
  rw [negInf_eq]; exact max_eq_right bot_le

/-- The score of query row `i` against key row `j`: `-∞` where the mask bit is set, else the scaled inner product. -/
def score (q k : Fin 1024 → Fin 64 → EReal) (msk : Fin 1024 → Fin 1024 → BitVec 1) (i j : Fin 1024) : EReal :=
  Scalar.select (msk i j) (Ideal.ofBits .f32 0xFF800000#32)
    ((∑ d : Fin 64, q i d * k j d) * Ideal.ofBits .f32 0x3E000000#32)

/-- The maximum of a row of scores, taken from `-∞`. -/
def rowMax (s : Fin 1024 → EReal) : EReal :=
  (Finset.univ : Finset (Fin 1024)).fold max (Ideal.ofBits .f32 0xFF800000#32) s

/-- The exponential of a score less its row's maximum. -/
def numer (s : Fin 1024 → EReal) (j : Fin 1024) : EReal := Ideal.exp (s j - rowMax s)

/-- A row of scores as weights: each exponential over the row's sum of exponentials. -/
def weight (s : Fin 1024 → EReal) (j : Fin 1024) : EReal :=
  Ideal.div (numer s j) (∑ j' : Fin 1024, numer s j')

/-- The attention weights of one batch entry. -/
def prob (q k : Fin 1024 → Fin 64 → EReal) (msk : Fin 1024 → Fin 1024 → BitVec 1) (i j : Fin 1024) : EReal :=
  weight (score q k msk i) j

/-- The attention output of one batch entry: each row the weighted sum of the value rows. -/
def outp (q k v : Fin 1024 → Fin 64 → EReal) (msk : Fin 1024 → Fin 1024 → BitVec 1) (i : Fin 1024) (d : Fin 64) : EReal :=
  ∑ j : Fin 1024, prob q k msk i j * v j d

/-- Batch entry `b` of a `[64, 1024, 64]` array, by coordinates. -/
def slab (x : (⟨3, ![64, 1024, 64]⟩ : Shape).Idx → EReal) (b : Fin 64) (i : Fin 1024) (d : Fin 64) : EReal :=
  x (ix3 b i d)

/-- Batch entry `b` of the mask, by coordinates. -/
def mslab (x : (⟨3, ![64, 1024, 1024]⟩ : Shape).Idx → BitVec 1) (b : Fin 64) (i j : Fin 1024) : BitVec 1 :=
  x (ix3 b i j)

/-- The weights over all 64 batch entries, as one array. -/
def probArr (q k : (⟨3, ![64, 1024, 64]⟩ : Shape).Idx → EReal) (msk : (⟨3, ![64, 1024, 1024]⟩ : Shape).Idx → BitVec 1) :
    (⟨3, ![64, 1024, 1024]⟩ : Shape).Idx → EReal :=
  fun x => prob (slab q ⟨(x 0).val, (x 0).isLt⟩) (slab k ⟨(x 0).val, (x 0).isLt⟩) (mslab msk ⟨(x 0).val, (x 0).isLt⟩)
    ⟨(x 1).val, (x 1).isLt⟩ ⟨(x 2).val, (x 2).isLt⟩

/-- The outputs over all 64 batch entries, as one array. -/
def outArr (q k v : (⟨3, ![64, 1024, 64]⟩ : Shape).Idx → EReal) (msk : (⟨3, ![64, 1024, 1024]⟩ : Shape).Idx → BitVec 1) :
    (⟨3, ![64, 1024, 64]⟩ : Shape).Idx → EReal :=
  fun x => outp (slab q ⟨(x 0).val, (x 0).isLt⟩) (slab k ⟨(x 0).val, (x 0).isLt⟩) (slab v ⟨(x 0).val, (x 0).isLt⟩)
    (mslab msk ⟨(x 0).val, (x 0).isLt⟩) ⟨(x 1).val, (x 1).isLt⟩ ⟨(x 2).val, (x 2).isLt⟩

theorem probArr_ix3 (q k : (⟨3, ![64, 1024, 64]⟩ : Shape).Idx → EReal) (msk : (⟨3, ![64, 1024, 1024]⟩ : Shape).Idx → BitVec 1)
    (b : Fin 64) (i j : Fin 1024) :
    probArr q k msk (ix3 b i j) = prob (slab q b) (slab k b) (mslab msk b) i j := rfl

theorem outArr_ix3 (q k v : (⟨3, ![64, 1024, 64]⟩ : Shape).Idx → EReal) (msk : (⟨3, ![64, 1024, 1024]⟩ : Shape).Idx → BitVec 1)
    (b : Fin 64) (i : Fin 1024) (d : Fin 64) :
    outArr q k v msk (ix3 b i d) = outp (slab q b) (slab k b) (slab v b) (mslab msk b) i d := rfl

/-- A one-bit word widened to 32 bits is nonzero exactly when it is `1`. -/
theorem cmpi_ne_setWidth (w : BitVec 1) : IntOp.cmpi .ne (w.setWidth 32) 0#32 = w := by
  rcases BitVec.eq_zero_or_eq_one w with h | h <;> subst h <;> decide

end Cert.Attention

end
-- ==== Proof.Columns.lean ====
/-
  A column of row results put back beside its rows: a vector of `a` entries cast to an `[a, 1]` column reads the
  vector at the row, an `[a, 1]` column broadcast to `[a, b]` reads the column at the row whatever the lane, and the
  source index of a reduction over the last axis is the result index with the reduced coordinate appended.
-/
import Idealize.ShloMosaic.PureOps.Ideal.Laws
import Idealize.ShloMosaic.Lib.Pipeline.Value
import Idealize.ShloMosaic.Lib.ValueIdx
import Idealize.ShloMosaic.Lib.ValueLayout

noncomputable section

namespace Cert.Attention

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Reducing a `[1024, 1024]` array over its lanes: the source index over row `i` at lane `k` is `(i, k)`. -/
theorem lift_row (h : (⟨2, ![1024, 1024]⟩ : Shape).Reduces [1] ⟨1, ![1024]⟩) (i k : Fin 1024) :
    h.lift (ix1 i) k = ix2 i k := by
  funext a; apply Fin.ext
  match a with
  | ⟨0, _⟩ => rfl
  | ⟨1, _⟩ => rfl

/-- Reducing a `[64, 1024, 1024]` array over its last axis: the source index over `(b, i)` at `k` is `(b, i, k)`. -/
theorem lift_batch_row (h : (⟨3, ![64, 1024, 1024]⟩ : Shape).Reduces [2] ⟨2, ![64, 1024]⟩) (b : Fin 64) (i k : Fin 1024) :
    h.lift (ix2 b i) k = ix3 b i k := by
  funext a; apply Fin.ext
  match a with
  | ⟨0, _⟩ => rfl
  | ⟨1, _⟩ => rfl
  | ⟨2, _⟩ => rfl

end Cert.Attention

end
-- ==== Proof.RefValue.lean ====
/-
  The reference program's two results, read index by index, are the attention weights and the attention output of
  Softmax.lean: the batched inner products over 64 entries divided by 8 are the products scaled by 1/8; the mask selects
  `-∞`; the row maximum is the fold of `max` from `-∞` over the 1024 keys (and the further maximum with `-∞` changes
  nothing); exponentials, their row sum from zero, the quotient; and the second batched product sums the weights against
  the value rows over the 1024 keys.
-/
import proofs.«176264_j50663434224570_2_alg».proof.Proof.Gen.ReferenceIdeal.Read
import proofs.«176264_j50663434224570_2_alg».proof.Proof.Softmax
import proofs.«176264_j50663434224570_2_alg».proof.Proof.Columns

noncomputable section

namespace Cert.ReferenceIdeal.RefValue

open Cert.ReferenceIdeal Cert.ReferenceIdeal.Gen Cert.ReferenceIdeal.Read
open Idealize.ShloMosaic Idealize.ShloMosaic.ValueIdx Cert.Attention

variable (x0 x1 x2 : (⟨3, ![64, 1024, 64]⟩ : Shape).Idx → EReal) (x3 : (⟨3, ![64, 1024, 1024]⟩ : Shape).Idx → BitVec 1)

/-- The masked scaled scores. -/
theorem score_at (b : Fin 64) (i j : Fin 1024) :
    val_main_v3 (F := Ideal) x0 x1 x3 (ix3 b i j) = score (slab x0 b) (slab x1 b) (mslab x3 b) i j := by
  rw [val_main_v3_apply, val_main_call0_v1_apply, val_main_call0_v0_apply, val_main_cst_0_apply,
    val_main_v2_apply, val_main_v0_apply, val_main_v1_apply, val_main_cst_apply]
  have el : ∀ d : Fin 64, lidx_main_v0 (ix3 b i j) d = ix3 b i d := fun d =>
    funext fun a => Fin.ext (by match a with | ⟨0, _⟩ => rfl | ⟨1, _⟩ => rfl | ⟨2, _⟩ => rfl)
  have er : ∀ d : Fin 64, ridx_main_v0 (ix3 b i j) d = ix3 b j d := fun d =>
    funext fun a => Fin.ext (by match a with | ⟨0, _⟩ => rfl | ⟨1, _⟩ => rfl | ⟨2, _⟩ => rfl)
  simp only [Ideal.hostDivf_def, Ideal.ofBits_def, div_eight, el, er]
  rfl

/-- The row maxima. -/
theorem rowMax_at (b : Fin 64) (i : Fin 1024) :
    val_main_v6 (F := Ideal) x0 x1 x3 (ix2 b i) = rowMax (score (slab x0 b) (slab x1 b) (mslab x3 b) i) := by
  rw [val_main_v6_apply, val_main_v5_apply, val_main_cst_2_apply]
  unfold val_main_v4
  have hR : (⟨3, ![64, 1024, 1024]⟩ : Shape).Reduces [2] ⟨2, ![64, 1024]⟩ := by decide
  rw [Host.reduce_eq_fold_single FloatOps.maximumf _ _ reducesTo_S64x1024x1024_S64x1024_d2 hR h_S_ (ix2 b i)]
  rw [val_main_cst_1_apply]
  simp only [Ideal.maximumf_def, Ideal.ofBits_def, max_negInf]
  unfold rowMax
  show Finset.fold max (Ideal.ofBits .f32 0xFF800000#32) (fun k : Fin 1024 => val_main_v3 (F := Ideal) x0 x1 x3 (hR.lift (ix2 b i) k))
      (Finset.univ : Finset (Fin 1024)) = _
  refine congrArg (fun f : Fin 1024 → EReal => Finset.fold max _ f Finset.univ) (funext fun k => ?_)
  rw [lift_batch_row hR b i k, score_at]

/-- The exponentials of the scores less their row maxima. -/
theorem numer_at (b : Fin 64) (i j : Fin 1024) :
    val_main_v10 (F := Ideal) x0 x1 x3 (ix3 b i j) = numer (score (slab x0 b) (slab x1 b) (mslab x3 b) i) j := by
  rw [val_main_v10_apply, val_main_v9_apply, val_main_v8_apply, val_main_v7_apply]
  have e : idx_main_v7 (idx_main_v8 (ix3 b i j)) = ix2 b i :=
    funext fun a => Fin.ext (by match a with | ⟨0, _⟩ => rfl | ⟨1, _⟩ => rfl)
  rw [e, rowMax_at, score_at]
  simp only [Ideal.hostUnary_exp_def, Ideal.subf_def]
  rfl

/-- The row sums of the exponentials. -/
theorem denom_at (b : Fin 64) (i : Fin 1024) :
    val_main_v11 (F := Ideal) x0 x1 x3 (ix2 b i) = ∑ j' : Fin 1024, numer (score (slab x0 b) (slab x1 b) (mslab x3 b) i) j' := by
  rw [val_main_v11_apply, val_main_cst_3_apply]
  simp only [Ideal.ofBits_def, zero_eq, zero_add]
  refine Finset.sum_congr rfl fun k _ => ?_
  have e : idx_main_v11 (ix2 b i) k = ix3 b i k :=
    funext fun a => Fin.ext (by match a with | ⟨0, _⟩ => rfl | ⟨1, _⟩ => rfl | ⟨2, _⟩ => rfl)
  rw [e, numer_at]

/-- The reference's second result is the array of attention weights. -/
theorem prob_at (b : Fin 64) (i j : Fin 1024) :
    val_main_v14 (F := Ideal) x0 x1 x3 (ix3 b i j) = prob (slab x0 b) (slab x1 b) (mslab x3 b) i j := by
  rw [val_main_v14_apply, val_main_v13_apply, val_main_v12_apply]
  have e : idx_main_v12 (idx_main_v13 (ix3 b i j)) = ix2 b i :=
    funext fun a => Fin.ext (by match a with | ⟨0, _⟩ => rfl | ⟨1, _⟩ => rfl)
  rw [e, denom_at, numer_at]
  simp only [Ideal.hostDivf_def]
  rfl

theorem weights_eq : val_main_v14 (F := Ideal) x0 x1 x3 = probArr x0 x1 x3 := by
  funext x
  obtain ⟨b, i, j, rfl⟩ : ∃ (b : Fin 64) (i j : Fin 1024), x = ix3 b i j := ⟨x 0, x 1, x 2, eq_ix3 x⟩
  rw [prob_at, probArr_ix3]

/-- The reference's first result is the array of attention outputs. -/
theorem out_at (b : Fin 64) (i : Fin 1024) (d : Fin 64) :
    val_main_v15 (F := Ideal) x0 x1 x2 x3 (ix3 b i d) = outp (slab x0 b) (slab x1 b) (slab x2 b) (mslab x3 b) i d := by
  rw [val_main_v15_apply]
  unfold outp
  refine Finset.sum_congr rfl fun k _ => ?_
  have el : lidx_main_v15 (ix3 b i d) k = ix3 b i k :=
    funext fun a => Fin.ext (by match a with | ⟨0, _⟩ => rfl | ⟨1, _⟩ => rfl | ⟨2, _⟩ => rfl)
  have er : ridx_main_v15 (ix3 b i d) k = ix3 b k d :=
    funext fun a => Fin.ext (by match a with | ⟨0, _⟩ => rfl | ⟨1, _⟩ => rfl | ⟨2, _⟩ => rfl)
  rw [el, er, prob_at]
  rfl

theorem outputs_eq : val_main_v15 (F := Ideal) x0 x1 x2 x3 = outArr x0 x1 x2 x3 := by
  funext x
  obtain ⟨b, i, d, rfl⟩ : ∃ (b : Fin 64) (i : Fin 1024) (d : Fin 64), x = ix3 b i d := ⟨x 0, x 1, x 2, eq_ix3 x⟩
  rw [out_at, outArr_ix3]

end Cert.ReferenceIdeal.RefValue

end
-- ==== Proof.BodyValue.lean ====
/-
  What the kernel body computes from the blocks it loads, read index by index: the weights it stores are the
  attention weights of Softmax.lean over the rows of the query and key blocks and the mask block's words compared with
  zero, and the output it stores is their weighted sum of the value block's rows.  The matrix products into a zero
  accumulator are sums over the one contracted coordinate; the row maximum is the fold of `max` from `-∞` over the
  lanes, the row sum the sum over the lanes, and each is put back beside its row as a column broadcast over the lanes.
-/
import proofs.«176264_j50663434224570_2_alg».proof.Proof.Gen.KernelIdeal.Skeleton
import proofs.«176264_j50663434224570_2_alg».proof.Proof.Softmax
import proofs.«176264_j50663434224570_2_alg».proof.Proof.Columns

noncomputable section

namespace Cert.KernelIdeal.BodyValue

open Cert.KernelIdeal Cert.KernelIdeal.Gen
open Idealize.ShloMosaic Idealize.ShloMosaic.ValueIdx Cert.Attention

/-- The scores as the body computes them from the query, key and mask blocks. -/
def scoreV (P0 P1 : Vec Ideal S1x1024x64 .f32) (P2 : Vec Ideal S1x1024x1024 .i32) : FVec Ideal S1024x1024 .f32 :=
  select (cmpi .ne (shapeCast S1024x1024 P2 shapeCasts_S1x1024x1024_S1024x1024) (constantI S1024x1024 32 0#32))
    (broadcast S1024x1024 (Scalar.ofBits (F := Ideal) .f32 0xFF800000#32))
    (mulf (matmul dot_S1024x64_S1024x64_S1024x1024_1_1_0_0_n_n (some .fp32)
        (shapeCast S1024x64 P0 shapeCasts_S1x1024x64_S1024x64 : FVec Ideal S1024x64 .f32) (shapeCast S1024x64 P1 shapeCasts_S1x1024x64_S1024x64 : FVec Ideal S1024x64 .f32)
        (constant (F := Ideal) S1024x1024 .f32 0x00000000#32))
      (broadcast S1024x1024 (Scalar.ofBits (F := Ideal) .f32 0x3E000000#32)))

/-- The exponentials of a block of scores less their row maxima, as the body computes them. -/
def numerV (s : FVec Ideal S1024x1024 .f32) : FVec Ideal S1024x1024 .f32 :=
  exp (subf s (broadcastTo S1024x1024 (shapeCast S1024x1
    (multiReduction .maximumf [1] S1024 s 0xFF800000#32 reduces_S1024x1024_S1024 (.inl rfl) rfl)
    shapeCasts_S1024_S1024x1) broadcasts_S1024x1_S1024x1024))

/-- The weights of a block of scores, as the body computes them. -/
def weightV (s : FVec Ideal S1024x1024 .f32) : FVec Ideal S1024x1024 .f32 :=
  divf (numerV s) (broadcastTo S1024x1024 (shapeCast S1024x1
    (multiReduction .add [1] S1024 (numerV s) 0x00000000#32 reduces_S1024x1024_S1024 (.inl rfl) rfl)
    shapeCasts_S1024_S1024x1) broadcasts_S1024x1_S1024x1024)

/-- The stored weights are the weights of the scores. -/
theorem pay1_eq (P0 P1 : Vec Ideal S1x1024x64 .f32) (P2 : Vec Ideal S1x1024x1024 .i32) :
    k0_pay1 (F := Ideal) P0 P1 P2 = weightV (scoreV P0 P1 P2) := rfl

/-- A vector of row results cast to a column and broadcast over the lanes reads the row's result. -/
theorem column_apply (r : FVec Ideal S1024 .f32) (i j : Fin 1024) :
    broadcastTo S1024x1024 (shapeCast S1024x1 r shapeCasts_S1024_S1024x1) broadcasts_S1024x1_S1024x1024 (ix2 i j) = r (ix1 i) :=
  (broadcastTo_a1_ab_apply _ _ i j).trans (shapeCast_a_a1_apply r _ i 0)

/-- The body's row maximum is the fold of `max` from `-∞` over the row. -/
theorem rowMaxV_apply (s : FVec Ideal S1024x1024 .f32) (i : Fin 1024) :
    multiReduction .maximumf [1] S1024 s 0xFF800000#32 reduces_S1024x1024_S1024 (.inl rfl) rfl (ix1 i)
      = rowMax (fun j' => s (ix2 i j')) := by
  refine (Ideal.multiReduction_maximumf_single s 0xFF800000#32 reduces_S1024x1024_S1024 (.inl rfl) rfl (ix1 i)).trans ?_
  unfold rowMax
  show Finset.fold max (Ideal.ofBits .f32 0xFF800000#32) (fun k : Fin 1024 => s (reduces_S1024x1024_S1024.lift (ix1 i) k))
      (Finset.univ : Finset (Fin 1024)) = _
  refine congrArg (fun f : Fin 1024 → EReal => Finset.fold max _ f Finset.univ) (funext fun k => ?_)
  rw [lift_row]

/-- The body's row sum is the sum over the row. -/
theorem rowSumV_apply (e : FVec Ideal S1024x1024 .f32) (i : Fin 1024) :
    multiReduction .add [1] S1024 e 0x00000000#32 reduces_S1024x1024_S1024 (.inl rfl) rfl (ix1 i)
      = ∑ j' : Fin 1024, e (ix2 i j') := by
  refine (Ideal.multiReduction_add_single e 0x00000000#32 reduces_S1024x1024_S1024 (.inl rfl) rfl (ix1 i)).trans ?_
  show ∑ k : Fin 1024, e (reduces_S1024x1024_S1024.lift (ix1 i) k) = _
  refine Finset.sum_congr rfl fun k _ => ?_
  rw [lift_row]

theorem numerV_apply (s : FVec Ideal S1024x1024 .f32) (i j : Fin 1024) :
    numerV s (ix2 i j) = numer (fun j' => s (ix2 i j')) j := by
  unfold numerV numer
  show Ideal.exp (s (ix2 i j) - _) = _
  rw [column_apply, rowMaxV_apply]

theorem weightV_apply (s : FVec Ideal S1024x1024 .f32) (i j : Fin 1024) :
    weightV s (ix2 i j) = weight (fun j' => s (ix2 i j')) j := by
  unfold weightV weight
  show Ideal.div (numerV s (ix2 i j)) _ = _
  rw [column_apply, rowSumV_apply, numerV_apply]
  refine congrArg (Ideal.div _) (Finset.sum_congr rfl fun k _ => ?_)
  rw [numerV_apply]

/-- Row `i` of a `[1, 1024, 64]` block. -/
def rows (P : Vec Ideal S1x1024x64 .f32) (i : Fin 1024) (d : Fin 64) : EReal := P (ix3 (0 : Fin 1) i d)

/-- The mask block's word at `(i, j)` compared with zero. -/
def bits (P2 : Vec Ideal S1x1024x1024 .i32) (i j : Fin 1024) : BitVec 1 := IntOp.cmpi .ne (P2 (ix3 (0 : Fin 1) i j)) 0#32

/-- The first product: query rows against key rows, summed over the 64 entries. -/
theorem qk_apply (P0 P1 : Vec Ideal S1x1024x64 .f32) (i j : Fin 1024) :
    matmul dot_S1024x64_S1024x64_S1024x1024_1_1_0_0_n_n (some .fp32)
        (shapeCast S1024x64 P0 shapeCasts_S1x1024x64_S1024x64 : FVec Ideal S1024x64 .f32) (shapeCast S1024x64 P1 shapeCasts_S1x1024x64_S1024x64 : FVec Ideal S1024x64 .f32)
        (constant (F := Ideal) S1024x1024 .f32 0x00000000#32) (ix2 i j)
      = ∑ d : Fin 64, rows P0 i d * rows P1 j d := by
  refine (Ideal.matmul_constant_zero_apply _ _ _ _ _).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 i j)
      ((contrEquiv1 dot_S1024x64_S1024x64_S1024x1024_1_1_0_0_n_n 64 rfl rfl).symm k) = ix2 i k :=
    funext fun a => Fin.ext (by
      match a with
      | ⟨0, _⟩ => rfl
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 i j)
      ((contrEquiv1 dot_S1024x64_S1024x64_S1024x1024_1_1_0_0_n_n 64 rfl rfl).symm k) = ix2 j k :=
    funext fun a => Fin.ext (by
      match a with
      | ⟨0, _⟩ => rfl
      | ⟨1, _⟩ => exact (dot_S1024x64_S1024x64_S1024x1024_1_1_0_0_n_n.rhsIdx_val_of_single rfl _ _).trans hk)
  rw [el, er, shapeCast_1ab_ab_apply, shapeCast_1ab_ab_apply]
  rfl

theorem scoreV_apply (P0 P1 : Vec Ideal S1x1024x64 .f32) (P2 : Vec Ideal S1x1024x1024 .i32) (i j : Fin 1024) :
    scoreV P0 P1 P2 (ix2 i j) = score (rows P0) (rows P1) (bits P2) i j := by
  unfold scoreV score
  rw [select_apply, mulf_apply, qk_apply]
  show Scalar.select (IntOp.cmpi .ne (shapeCast S1024x1024 P2 shapeCasts_S1x1024x1024_S1024x1024 (ix2 i j)) 0#32) _ _ = _
  rw [shapeCast_1ab_ab_apply]
  rfl

/-- The stored weights, index by index. -/
theorem pay1_apply (P0 P1 : Vec Ideal S1x1024x64 .f32) (P2 : Vec Ideal S1x1024x1024 .i32) (i j : Fin 1024) :
    k0_pay1 (F := Ideal) P0 P1 P2 (ix2 i j) = prob (rows P0) (rows P1) (bits P2) i j := by
  rw [pay1_eq, weightV_apply]
  unfold prob
  refine congrArg (weight · j) (funext fun j' => ?_)
  rw [scoreV_apply]

/-- The second product: a block of weights against the value rows, summed over the 1024 keys. -/
theorem pv_apply (w : FVec Ideal S1024x1024 .f32) (P : Vec Ideal S1x1024x64 .f32) (i : Fin 1024) (d : Fin 64) :
    matmul dot_S1024x1024_S1024x64_S1024x64_1_0_0_1_n_n (some .fp32) w
        (shapeCast S1024x64 P shapeCasts_S1x1024x64_S1024x64 : FVec Ideal S1024x64 .f32) (constant (F := Ideal) S1024x64 .f32 0x00000000#32) (ix2 i d)
      = ∑ j : Fin 1024, w (ix2 i j) * rows P j d := by
  refine (Ideal.matmul_constant_zero_apply _ _ _ _ _).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 i d)
      ((contrEquiv1 dot_S1024x1024_S1024x64_S1024x64_1_0_0_1_n_n 1024 rfl rfl).symm k) = ix2 i k :=
    funext fun a => Fin.ext (by
      match a with
      | ⟨0, _⟩ => rfl
      | ⟨1, _⟩ => exact (dot_S1024x1024_S1024x64_S1024x64_1_0_0_1_n_n.lhsIdx_val_of_single rfl _ _).trans hk)
  have er : dot_S1024x1024_S1024x64_S1024x64_1_0_0_1_n_n.rhsIdx (ix2 i d)
      ((contrEquiv1 dot_S1024x1024_S1024x64_S1024x64_1_0_0_1_n_n 1024 rfl rfl).symm k) = ix2 k d :=
    funext fun a => Fin.ext (by
      match a with
      | ⟨0, _⟩ => exact (dot_S1024x1024_S1024x64_S1024x64_1_0_0_1_n_n.rhsIdx_val_of_single rfl _ _).trans hk
      | ⟨1, _⟩ => rfl)
  rw [el, er, shapeCast_1ab_ab_apply]
  rfl

/-- The stored output, index by index. -/
theorem pay3_apply (P0 P1 P3 : Vec Ideal S1x1024x64 .f32) (P2 : Vec Ideal S1x1024x1024 .i32) (u : Fin 1) (i : Fin 1024) (d : Fin 64) :
    k0_pay3 (F := Ideal) P0 P1 P3 P2 (ix3 u i d) = outp (rows P0) (rows P1) (rows P3) (bits P2) i d := by
  unfold k0_pay3
  refine (shapeCast_ab_1ab_apply _ _ u i d).trans ?_
  rw [pv_apply]
  unfold outp
  refine Finset.sum_congr rfl fun k _ => ?_
  rw [pay1_apply]

/-- The stored weights in the block's own shape. -/
theorem pay2_apply (P0 P1 : Vec Ideal S1x1024x64 .f32) (P2 : Vec Ideal S1x1024x1024 .i32) (u : Fin 1) (i j : Fin 1024) :
    k0_pay2 (F := Ideal) P0 P1 P2 (ix3 u i j) = prob (rows P0) (rows P1) (bits P2) i j := by
  unfold k0_pay2
  refine (shapeCast_ab_1ab_apply _ _ u i j).trans ?_
  rw [pay1_apply]

end Cert.KernelIdeal.BodyValue

end
-- ==== Proof.ArrayValue.lean ====
/-
  From the blocks to the arrays.  Grid point `t` stages batch entry `t` of the queries, the keys, the values and the
  widened mask (block index `(t, 0, 0)` of each array, the block being one whole batch entry), and writes back batch
  entry `t` of both results.  So what point `t` writes back is block `t` of the attention weights, respectively of the
  attention outputs, of the argument arrays; the 64 blocks cover the result arrays (index `(b, i, j)` lies in the block
  of point `b`), hence after the run each result array is that function of the arguments.  The mask reaches the kernel
  widened from one bit to 32 by a host operation before the region; the body's comparison of the word with zero gives
  the bit back.
-/
import proofs.«176264_j50663434224570_2_alg».proof.Proof.Gen.KernelIdeal.Value
import proofs.«176264_j50663434224570_2_alg».proof.Proof.BodyValue
import Idealize.ShloMosaic.Lib.StableHlo.Run

noncomputable section

namespace Cert.KernelIdeal.ArrayValue

open Cert.KernelIdeal Cert.KernelIdeal.Gen Cert.KernelIdeal.BodyValue
open Idealize.ShloMosaic Idealize.ShloMosaic.TcCoe Idealize.SL.Sem Idealize.ShloMosaic.ValueIdx Cert.Attention
open Idealize.ShloMosaic.Pipeline (Dat)

/-! ## One grid point, over blocks and arrays as variables -/

/-- If the loaded blocks are batch entry `b` of the arrays `Q`, `K` and of the mask `M` widened, the stored weights
    are batch entry `b` of the attention weights of `Q`, `K`, `M`. -/
theorem point_weights (Q K : S64x1024x64.Idx → EReal) (M : S64x1024x1024.Idx → BitVec 1)
    (P0 P1 : Vec Ideal S1x1024x64 .f32) (P2 : Vec Ideal S1x1024x1024 .i32) (b : Fin 64)
    (h0 : ∀ (i : Fin 1024) (d : Fin 64), P0 (ix3 (0 : Fin 1) i d) = Q (ix3 b i d))
    (h1 : ∀ (i : Fin 1024) (d : Fin 64), P1 (ix3 (0 : Fin 1) i d) = K (ix3 b i d))
    (h2 : ∀ (i j : Fin 1024), P2 (ix3 (0 : Fin 1) i j) = (M (ix3 b i j)).setWidth 32)
    (y : S1x1024x1024.Idx) :
    k0_pay2 (F := Ideal) P0 P1 P2 y = probArr Q K M (ix3 b ⟨(y 1).val, (y 1).isLt⟩ ⟨(y 2).val, (y 2).isLt⟩) := by
  obtain ⟨u, i, j, rfl⟩ : ∃ (u : Fin 1) (i j : Fin 1024), y = ix3 u i j := ⟨y 0, y 1, y 2, eq_ix3 y⟩
  have e0 : rows P0 = slab Q b := funext fun i => funext fun d => h0 i d
  have e1 : rows P1 = slab K b := funext fun i => funext fun d => h1 i d
  have e2 : bits P2 = mslab M b := funext fun i => funext fun j => by
    unfold bits mslab; rw [h2, cmpi_ne_setWidth]
  rw [pay2_apply, probArr_ix3, e0, e1, e2]

/-- Likewise the stored output, with the value block batch entry `b` of `W`. -/
theorem point_out (Q K W : S64x1024x64.Idx → EReal) (M : S64x1024x1024.Idx → BitVec 1)
    (P0 P1 P3 : Vec Ideal S1x1024x64 .f32) (P2 : Vec Ideal S1x1024x1024 .i32) (b : Fin 64)
    (h0 : ∀ (i : Fin 1024) (d : Fin 64), P0 (ix3 (0 : Fin 1) i d) = Q (ix3 b i d))
    (h1 : ∀ (i : Fin 1024) (d : Fin 64), P1 (ix3 (0 : Fin 1) i d) = K (ix3 b i d))
    (h3 : ∀ (i : Fin 1024) (d : Fin 64), P3 (ix3 (0 : Fin 1) i d) = W (ix3 b i d))
    (h2 : ∀ (i j : Fin 1024), P2 (ix3 (0 : Fin 1) i j) = (M (ix3 b i j)).setWidth 32)
    (y : S1x1024x64.Idx) :
    k0_pay3 (F := Ideal) P0 P1 P3 P2 y = outArr Q K W M (ix3 b ⟨(y 1).val, (y 1).isLt⟩ ⟨(y 2).val, (y 2).isLt⟩) := by
  obtain ⟨u, i, d, rfl⟩ : ∃ (u : Fin 1) (i : Fin 1024) (d : Fin 64), y = ix3 u i d := ⟨y 0, y 1, y 2, eq_ix3 y⟩
  have e0 : rows P0 = slab Q b := funext fun i => funext fun d => h0 i d
  have e1 : rows P1 = slab K b := funext fun i => funext fun d => h1 i d
  have e3 : rows P3 = slab W b := funext fun i => funext fun d => h3 i d
  have e2 : bits P2 = mslab M b := funext fun i => funext fun j => by
    unfold bits mslab; rw [h2, cmpi_ne_setWidth]
  rw [pay3_apply, outArr_ix3, e0, e1, e3, e2]

/-! ## The blocks the points stage -/

variable (m : (ℓ : Loc nD τ sig) → Buf (Elt Ideal) ℓ) (ρ : Dev nD → PrngReg)

theorem hz : (![0, 0, 0] : Fin 3 → Nat) = fun _ => 0 := funext fun a => by fin_cases a <;> rfl

/-- The batch entry a grid point works on. -/
def entry (t : Fin cfg0.N) : Fin 64 := ⟨t.val, lt_of_lt_of_eq t.isLt N_0⟩

/-- Every window's block index at point `t` is `(t, 0, 0)` (decided over the 64 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The mask array as the region finds it: the mask argument widened to 32 bits. -/
theorem V_mask (c : Dev nD) :
    (V m c main_v0 : S64x1024x1024.Idx → BitVec 32) = extui 32 (m ((c : Thread nD τ).loc main_arg3)) natLt_1_32 := by
  dsimp only [Gen.V, Gen.hostOps0]; after_results

/-- The query block at point `t` is batch entry `t` of the query argument. -/
theorem blk_q (c : Dev nD) (t : Fin cfg0.N) (i : Fin 1024) (d : Fin 64) :
    iblk m c 0 t (ix3 (0 : Fin 1) i d) = (m ((c : Thread nD τ).loc main_arg0) : S64x1024x64.Idx → EReal) (ix3 (entry t) i d) := by
  show V m c main_arg0 (((cfg0.win 0).blk t).view.emb (ix3 (0 : Fin 1) i d)) = _
  rw [V_main_arg0]
  refine congrArg _ (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 64 + 1 * d.val = d.val; omega

/-- The key block at point `t` is batch entry `t` of the key argument. -/
theorem blk_k (c : Dev nD) (t : Fin cfg0.N) (i : Fin 1024) (d : Fin 64) :
    iblk m c 1 t (ix3 (0 : Fin 1) i d) = (m ((c : Thread nD τ).loc main_arg1) : S64x1024x64.Idx → EReal) (ix3 (entry t) i d) := by
  show V m c main_arg1 (((cfg0.win 1).blk t).view.emb (ix3 (0 : Fin 1) i d)) = _
  rw [V_main_arg1]
  refine congrArg _ (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 64 + 1 * d.val = d.val; omega

/-- The value block at point `t` is batch entry `t` of the value argument. -/
theorem blk_v (c : Dev nD) (t : Fin cfg0.N) (i : Fin 1024) (d : Fin 64) :
    iblk m c 2 t (ix3 (0 : Fin 1) i d) = (m ((c : Thread nD τ).loc main_arg2) : S64x1024x64.Idx → EReal) (ix3 (entry t) i d) := by
  show V m c main_arg2 (((cfg0.win 2).blk t).view.emb (ix3 (0 : Fin 1) i d)) = _
  rw [V_main_arg2]
  refine congrArg _ (funext fun a => Fin.ext ?_)
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 1024 + 1 * i.val = i.val; omega
  | ⟨2, _⟩ => show win0_2.index t (2 : Fin 3) * 64 + 1 * d.val = d.val; omega

/-- The mask block at point `t` is batch entry `t` of the mask argument, each bit widened. -/
theorem blk_m (c : Dev nD) (t : Fin cfg0.N) (i j : Fin 1024) :
    iblk m c 3 t (ix3 (0 : Fin 1) i j)
      = ((m ((c : Thread nD τ).loc main_arg3) : S64x1024x1024.Idx → BitVec 1) (ix3 (entry t) i j)).setWidth 32 := by
  show (V m c main_v0 : S64x1024x1024.Idx → BitVec 32) (((cfg0.win 3).blk t).view.emb (ix3 (0 : Fin 1) i j)) = _
  rw [V_mask, extui_apply]
  refine congrArg (fun x => BitVec.setWidth 32 ((m ((c : Thread nD τ).loc main_arg3) : S64x1024x1024.Idx → BitVec 1) x))
    (funext fun a => Fin.ext ?_)
  obtain ⟨-, -, -, ⟨e0, e1, e2⟩, -⟩ := idx_facts t
  match a with
  | ⟨0, _⟩ => show win0_3.index t (0 : Fin 3) * 1 + 1 * 0 = t.val; omega
  | ⟨1, _⟩ => show win0_3.index t (1 : Fin 3) * 1024 + 1 * i.val = i.val; omega
  | ⟨2, _⟩ => show win0_3.index t (2 : Fin 3) * 1024 + 1 * j.val = j.val; omega

/-! ## The result arrays -/

/-- The attention weights of the argument arrays on core `c`. -/
def weightsOf (c : Dev nD) : S64x1024x1024.Idx → EReal :=
  probArr (m ((c : Thread nD τ).loc main_arg0)) (m ((c : Thread nD τ).loc main_arg1)) (m ((c : Thread nD τ).loc main_arg3))

/-- The attention outputs of the argument arrays on core `c`. -/
def outputsOf (c : Dev nD) : S64x1024x64.Idx → EReal :=
  outArr (m ((c : Thread nD τ).loc main_arg0)) (m ((c : Thread nD τ).loc main_arg1)) (m ((c : Thread nD τ).loc main_arg2))
    (m ((c : Thread nD τ).loc main_arg3))

/-- What point `t` writes back to the weights array is block `t` of the attention weights. -/
theorem flushed_weights (c : Dev nD) (t : Fin cfg0.N) :
    (dats m 0 c).flushed 5 t = ((cfg0.win 5).blk t).view.read (Elt Ideal) (weightsOf m c) := by
  rw [Value.flushed5]
  unfold out0_5
  rw [View.canon_unit_zero hz]
  simp only [View.ld_unit_zero (S := S1x1024x64) hz, View.ld_unit_zero (S := S1x1024x1024) hz]
  funext y
  show k0_pay2 (F := Ideal) (iblk m c 0 t) (iblk m c 1 t) (iblk m c 3 t) y = weightsOf m c (((cfg0.win 5).blk t).view.emb y)
  refine (point_weights _ _ _ _ _ _ (entry t) (blk_q m c t) (blk_k m c t) (blk_m m c t) y).trans ?_
  unfold weightsOf
  refine congrArg (probArr _ _ _) (funext fun a => Fin.ext ?_)
  obtain ⟨-, -, -, -, -, ⟨e0, e1, e2⟩⟩ := idx_facts t
  match a with
  | ⟨0, _⟩ => show t.val = win0_5.index t (0 : Fin 3) * 1 + 1 * (y 0).val; have hy : (y 0).val < 1 := (y 0).isLt; omega
  | ⟨1, _⟩ => show (y 1).val = win0_5.index t (1 : Fin 3) * 1024 + 1 * (y 1).val; omega
  | ⟨2, _⟩ => show (y 2).val = win0_5.index t (2 : Fin 3) * 1024 + 1 * (y 2).val; omega

/-- What point `t` writes back to the output array is block `t` of the attention outputs. -/
theorem flushed_outputs (c : Dev nD) (t : Fin cfg0.N) :
    (dats m 0 c).flushed 4 t = ((cfg0.win 4).blk t).view.read (Elt Ideal) (outputsOf m c) := by
  rw [Value.flushed4]
  unfold out0_4
  rw [View.canon_unit_zero hz]
  simp only [View.ld_unit_zero (S := S1x1024x64) hz, View.ld_unit_zero (S := S1x1024x1024) hz]
  funext y
  show k0_pay3 (F := Ideal) (iblk m c 0 t) (iblk m c 1 t) (iblk m c 2 t) (iblk m c 3 t) y = outputsOf m c (((cfg0.win 4).blk t).view.emb y)
  refine (point_out _ _ _ _ _ _ _ _ (entry t) (blk_q m c t) (blk_k m c t) (blk_v m c t) (blk_m m c t) y).trans ?_
  unfold outputsOf
  refine congrArg (outArr _ _ _ _) (funext fun a => Fin.ext ?_)
  obtain ⟨-, -, -, -, ⟨e0, e1, e2⟩, -⟩ := idx_facts t
  match a with
  | ⟨0, _⟩ => show t.val = win0_4.index t (0 : Fin 3) * 1 + 1 * (y 0).val; have hy : (y 0).val < 1 := (y 0).isLt; omega
  | ⟨1, _⟩ => show (y 1).val = win0_4.index t (1 : Fin 3) * 1024 + 1 * (y 1).val; omega
  | ⟨2, _⟩ => show (y 2).val = win0_4.index t (2 : Fin 3) * 64 + 1 * (y 2).val; omega

/-- An index of the weights array is in point `t`'s block iff each coordinate is in the block's range. -/
theorem mem_blk_weights (t : Fin cfg0.N) (i : S64x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v1_1).slice (win0_5.rect t)).set ↔ _
  rw [View.set_slice_whole, Rect.mem_set_unit]
  exact Iff.rfl

/-- An index of the output array is in point `t`'s block iff each coordinate is in the block's range. -/
theorem mem_blk_outputs (t : Fin cfg0.N) (i : S64x1024x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v1_0).slice (win0_4.rect t)).set ↔ _
  rw [View.set_slice_whole, Rect.mem_set_unit]
  exact Iff.rfl

/-- Index `(b, i, j)` of the weights array lies in the block of point `b`. -/
theorem cover_weights (i : S64x1024x1024.Idx) :
    ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 1024 := (i 2).isLt
  refine ⟨⟨(i 0).val, lt_of_lt_of_eq h0 N_0.symm⟩, flush0_5 _, ?_⟩
  rw [mem_blk_weights]
  obtain ⟨-, -, -, -, -, ⟨e0, e1, e2⟩⟩ := idx_facts ⟨(i 0).val, lt_of_lt_of_eq h0 N_0.symm⟩
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e0]; show (i 0).val * 1 ≤ (i 0).val ∧ (i 0).val < (i 0).val * 1 + 1; omega
  | ⟨1, _⟩ =>
    show win0_5.index ⟨(i 0).val, _⟩ (1 : Fin 3) * 1024 ≤ (i 1).val ∧ (i 1).val < win0_5.index ⟨(i 0).val, _⟩ (1 : Fin 3) * 1024 + 1024
    rw [e1]; omega
  | ⟨2, _⟩ =>
    show win0_5.index ⟨(i 0).val, _⟩ (2 : Fin 3) * 1024 ≤ (i 2).val ∧ (i 2).val < win0_5.index ⟨(i 0).val, _⟩ (2 : Fin 3) * 1024 + 1024
    rw [e2]; omega

/-- Index `(b, i, d)` of the output array lies in the block of point `b`. -/
theorem cover_outputs (i : S64x1024x64.Idx) :
    ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 64 := (i 2).isLt
  refine ⟨⟨(i 0).val, lt_of_lt_of_eq h0 N_0.symm⟩, flush0_4 _, ?_⟩
  rw [mem_blk_outputs]
  obtain ⟨-, -, -, -, ⟨e0, e1, e2⟩, -⟩ := idx_facts ⟨(i 0).val, lt_of_lt_of_eq h0 N_0.symm⟩
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]; show (i 0).val * 1 ≤ (i 0).val ∧ (i 0).val < (i 0).val * 1 + 1; omega
  | ⟨1, _⟩ =>
    show win0_4.index ⟨(i 0).val, _⟩ (1 : Fin 3) * 1024 ≤ (i 1).val ∧ (i 1).val < win0_4.index ⟨(i 0).val, _⟩ (1 : Fin 3) * 1024 + 1024
    rw [e1]; omega
  | ⟨2, _⟩ =>
    show win0_4.index ⟨(i 0).val, _⟩ (2 : Fin 3) * 64 ≤ (i 2).val ∧ (i 2).val < win0_4.index ⟨(i 0).val, _⟩ (2 : Fin 3) * 64 + 64
    rw [e2]; omega

/-- After the run the weights array holds the attention weights of the arguments. -/
theorem final_weights (c : Dev nD) : (dats m 0 c).arrAt 5 cfg0.N = weightsOf m c :=
  (dats m 0 c).arrAt_eq_of_cover 5 _ (fun t _ => flushed_weights m c t) cover_weights

/-- After the run the output array holds the attention outputs of the arguments. -/
theorem final_outputs (c : Dev nD) : (dats m 0 c).arrAt 4 cfg0.N = outputsOf m c :=
  (dats m 0 c).arrAt_eq_of_cover 4 _ (fun t _ => flushed_outputs m c t) cover_outputs

/-- The kernel's run: every weakly fair execution ends with the two result arrays at the attention outputs and
    weights of the argument arrays, the arguments unchanged. -/
theorem run : θ_run defs (onTc (τ := τ) (main (F := Ideal))) ⟨m, fun _ => 0, ρ⟩ fun r => ∀ c : Dev nD,
      r.2.mem ((c : Thread nD τ).loc main_v1_0) = outputsOf m c
      ∧ r.2.mem ((c : Thread nD τ).loc main_v1_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_outputs m c), (h c).2.1.trans (final_weights m c), (h c).2.2⟩)
    (Value.run_blocks m ρ)

end Cert.KernelIdeal.ArrayValue

end
-- ==== Proof.lean ====
/-
  Masked scaled dot-product attention, batch by batch: the kernel and its jnp reference compute one function on the
  extended reals.

  For each of 64 batch entries both programs form the 1024 × 1024 inner products of query rows with key rows over 64
  entries, scale them (the kernel multiplies by 1/8, the reference divides by 8: one function at every extended real),
  put `-∞` where the mask bit is set, subtract each row's maximum (a fold of `max` from `-∞`), exponentiate, divide by
  the row's sum, and return these weights together with their product against the value rows.  A matrix product into a
  zero accumulator and the host's `dot_general` are the same sum at the ideal values, and so are the lane reductions
  and the host's reductions over the last axis; no step needs the inputs to be finite, so the precondition is not used.

  The kernel's frames and the run of the reference are generated; the idealization rewrote nothing, so `preserves` is
  trivial.  Softmax.lean states the common function, RefValue.lean reads the reference's two results as it, BodyValue.lean
  the kernel body's two stores, ArrayValue.lean puts the 64 blocks together.
-/
import proofs.«176264_j50663434224570_2_alg».proof.Defs
import proofs.«176264_j50663434224570_2_alg».proof.Proof.Gen.Kernel
import proofs.«176264_j50663434224570_2_alg».proof.Proof.Gen.Kernel.Frame
import proofs.«176264_j50663434224570_2_alg».proof.Proof.Gen.KernelIdeal
import proofs.«176264_j50663434224570_2_alg».proof.Proof.Gen.KernelIdeal.Frame
import proofs.«176264_j50663434224570_2_alg».proof.Proof.Gen.KernelIdeal.Value
import proofs.«176264_j50663434224570_2_alg».proof.Proof.Gen.ReferenceIdeal
import proofs.«176264_j50663434224570_2_alg».proof.Proof.Gen.ReferenceIdeal.Run
import proofs.«176264_j50663434224570_2_alg».proof.Proof.Gen.ReferenceIdeal.Read
import proofs.«176264_j50663434224570_2_alg».proof.Proof.Gen.Pre_finite_inputs
import proofs.«176264_j50663434224570_2_alg».proof.Proof.RefValue
import proofs.«176264_j50663434224570_2_alg».proof.Proof.ArrayValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the attention outputs and the attention weights of arguments that agree. -/
theorem algebraic : Cert.algebraic_KernelIdeal_ReferenceIdeal := by
  intro m ρ m' ρ' _ hagree
  refine ⟨fun c => Cert.KernelIdeal.ArrayValue.outputsOf m c, fun c => Cert.KernelIdeal.ArrayValue.weightsOf m c,
    Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.ReferenceIdeal.RefValue.outputs_eq,
      (hagree c).1, (hagree c).2.1, (hagree c).2.2.1, (hagree c).2.2.2]
    rfl
  · rw [(h c).2.1, Cert.ReferenceIdeal.Read.val_main_v14_eq, Cert.ReferenceIdeal.RefValue.weights_eq,
      (hagree c).1, (hagree c).2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
